-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x256x1x512 : Shape := ⟨4, ![4, 256, 1, 512]⟩
abbrev S4x1x64x512 : Shape := ⟨4, ![4, 1, 64, 512]⟩
abbrev S512x512 : Shape := ⟨2, ![512, 512]⟩
abbrev S512 : Shape := ⟨1, ![512]⟩
abbrev S_ : Shape := ⟨0, ![]⟩

class Facts : Prop where
  bcast_S_S4x256x1x512 : S_.BroadcastsInDim S4x256x1x512 (![] : Fin 0 → Fin S4x256x1x512.rank)
  reducesTo_S4x256x1x512_S_d0_1_2_3 : S4x256x1x512.ReducesTo [0, 1, 2, 3] S_
  h_S_ : 0 < S_.numel
  bcast_S_S4x1x64x512 : S_.BroadcastsInDim S4x1x64x512 (![] : Fin 0 → Fin S4x1x64x512.rank)
  reducesTo_S4x1x64x512_S_d0_1_2_3 : S4x1x64x512.ReducesTo [0, 1, 2, 3] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512x512 .f32) (main_arg5 : FVec F S512x512 .f32) (main_arg6 : FVec F S512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  main_v33

def fn {F : FTy → Type} [FloatOps F] (main_arg0 : FVec F S4x256x1x512 .f32) (main_arg1 : FVec F S4x1x64x512 .f32) (main_arg2 : FVec F S512x512 .f32) (main_arg3 : FVec F S512 .f32) (main_arg4 : FVec F S512x512 .f32) (main_arg5 : FVec F S512x512 .f32) (main_arg6 : FVec F S512 .f32) : IVec S_ 1 :=
  let main_v0 : FVec F S4x256x1x512 .f32 := Host.absf main_arg0
  let main_cst : FVec F S_ .f32 := constant S_ .f32 0x7F800000#32
  let main_v1 : FVec F S4x256x1x512 .f32 := broadcastInDim S4x256x1x512 ![] bcast_S_S4x256x1x512 main_cst
  let main_v2 : IVec S4x256x1x512 1 := cmpf .olt main_v0 main_v1
  let main_c : IVec S_ 1 := constantI S_ 1 1#1
  let main_v3 : IVec S_ 1 := (fun x v => Host.reduce IntOp.andi x v reducesTo_S4x256x1x512_S_d0_1_2_3 h_S_) main_v2 main_c
  let main_v4 : FVec F S4x1x64x512 .f32 := Host.absf main_arg1
  let main_cst_0 : FVec F S_ .f32 := constant S_ .f32 0x7F800000#32
  let main_v5 : FVec F S4x1x64x512 .f32 := broadcastInDim S4x1x64x512 ![] bcast_S_S4x1x64x512 main_cst_0
  let main_v6 : IVec S4x1x64x512 1 := cmpf .olt main_v4 main_v5
  let main_c_1 : IVec S_ 1 := constantI S_ 1 1#1
  let main_v7 : IVec S_ 1 := (fun x v => Host.reduce IntOp.andi x v reducesTo_S4x1x64x512_S_d0_1_2_3 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_v13 main_v16
-- ==== Kernel.lean ====
abbrev S4x256x1x512 : Shape := ⟨4, ![4, 256, 1, 512]⟩
abbrev S4x1x64x512 : Shape := ⟨4, ![4, 1, 64, 512]⟩
abbrev S512x512 : Shape := ⟨2, ![512, 512]⟩
abbrev S512 : Shape := ⟨1, ![512]⟩
abbrev S4x256x512 : Shape := ⟨3, ![4, 256, 512]⟩
abbrev S4x64x512 : Shape := ⟨3, ![4, 64, 512]⟩
abbrev S4x256x64x512 : Shape := ⟨4, ![4, 256, 64, 512]⟩
abbrev S1x32x512 : Shape := ⟨3, ![1, 32, 512]⟩
abbrev S1x64x512 : Shape := ⟨3, ![1, 64, 512]⟩
abbrev S1x32x64x512 : Shape := ⟨4, ![1, 32, 64, 512]⟩
abbrev S1x512 : Shape := ⟨2, ![1, 512]⟩
abbrev S64x512 : Shape := ⟨2, ![64, 512]⟩
abbrev S1x8x512 : Shape := ⟨3, ![1, 8, 512]⟩
abbrev S8x512 : Shape := ⟨2, ![8, 512]⟩
abbrev S8x1x512 : Shape := ⟨3, ![8, 1, 512]⟩
abbrev S8x64x512 : Shape := ⟨3, ![8, 64, 512]⟩
abbrev S1x8x64x512 : Shape := ⟨4, ![1, 8, 64, 512]⟩

abbrev nBuf : Space → Nat
  | .hbm => 10
  | .vmem => 11
  | .smem => 0
  | _ => 0

abbrev bufTy : (tb : Table) → Fin (tcTables nBuf tb) → BufTy
  | .hbm, ⟨0, _⟩ => ⟨S4x256x1x512, .f32⟩
  | .hbm, ⟨1, _⟩ => ⟨S4x1x64x512, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512x512, .f32⟩
  | .hbm, ⟨6, _⟩ => ⟨S512, .f32⟩
  | .hbm, ⟨7, _⟩ => ⟨S4x256x512, .f32⟩
  | .hbm, ⟨8, _⟩ => ⟨S4x64x512, .f32⟩
  | .hbm, ⟨9, _⟩ => ⟨S4x256x64x512, .f32⟩
  | .local _ .vmem, ⟨0, _⟩ => ⟨S1x32x512, .f32⟩
  | .local _ .vmem, ⟨1, _⟩ => ⟨S1x32x512, .f32⟩
  | .local _ .vmem, ⟨2, _⟩ => ⟨S1x64x512, .f32⟩
  | .local _ .vmem, ⟨3, _⟩ => ⟨S1x64x512, .f32⟩
  | .local _ .vmem, ⟨4, _⟩ => ⟨S512x512, .f32⟩
  | .local _ .vmem, ⟨5, _⟩ => ⟨S512, .f32⟩
  | .local _ .vmem, ⟨6, _⟩ => ⟨S512x512, .f32⟩
  | .local _ .vmem, ⟨7, _⟩ => ⟨S512x512, .f32⟩
  | .local _ .vmem, ⟨8, _⟩ => ⟨S512, .f32⟩
  | .local _ .vmem, ⟨9, _⟩ => ⟨S1x32x64x512, .f32⟩
  | .local _ .vmem, ⟨10, _⟩ => ⟨S1x32x64x512, .f32⟩
  | _, _ => ⟨S4x256x1x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![4, 8], ![false, false]⟩

def k0_mult1 : BitVec 32 :=
  let c0_i32 : BitVec 32 := 0#32
  let c8_i32 : BitVec 32 := 8#32
  let v14 : BitVec 32 := Scalar.muli c0_i32 c8_i32
  v14
def k0_off1 (c0_i32 : BitVec 32) : Fin 3 → Nat :=
  let c0_10 : Index := 0#32
  let c8_i32 : BitVec 32 := 8#32
  let v14 : BitVec 32 := Scalar.muli c0_i32 c8_i32
  let v15 : BitVec 32 := v14
  let v16 : Index := Scalar.indexCast v15
  let c0_11 : Index := 0#32
  ![0, v16.toNat, 0]
def k0_off2 (c0_i32 : BitVec 32) : Fin 4 → Nat :=
  let c0_14 : Index := 0#32
  let c8_i32 : BitVec 32 := 8#32
  let v14 : BitVec 32 := Scalar.muli c0_i32 c8_i32
  let v15 : BitVec 32 := v14
  let v35 : Index := Scalar.indexCast v15
  let c0_15 : Index := 0#32
  let c0_16 : Index := 0#32
  ![0, v35.toNat, 0, 0]
def k0_mult2 : BitVec 32 :=
  let c1_i32 : BitVec 32 := 1#32
  let c8_i32_17 : BitVec 32 := 8#32
  let v39 : BitVec 32 := Scalar.muli c1_i32 c8_i32_17
  v39
def k0_mult3 : BitVec 32 :=
  let c2_i32 : BitVec 32 := 2#32
  let c8_i32_25 : BitVec 32 := 8#32
  let v64 : BitVec 32 := Scalar.muli c2_i32 c8_i32_25
  v64
def k0_mult4 : BitVec 32 :=
  let c3_i32 : BitVec 32 := 3#32
  let c8_i32_33 : BitVec 32 := 8#32
  let v89 : BitVec 32 := Scalar.muli c3_i32 c8_i32_33
  v89
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x32x64x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  shapeCasts_S4x256x1x512_S4x256x512 : S4x256x1x512.ShapeCasts S4x256x512
  shapeCasts_S4x1x64x512_S4x64x512 : S4x1x64x512.ShapeCasts S4x64x512
  inb_S512x512_S512x512_0_0 : ∀ a, (![0, 0] : Fin 2 → Nat) a + S512x512.size a ≤ S512x512.size a
  h_S512x512 : 0 < S512x512.numel
  bitsLt_bf16_f32 : FTy.bits .bf16 < FTy.bits .f32
  inb_S512_S512_0 : ∀ a, (![0] : Fin 1 → Nat) a + S512.size a ≤ S512.size a
  h_S512 : 0 < S512.numel
  shapeCasts_S512_S1x512 : S512.ShapeCasts S1x512
  inb_S1x64x512_S1x64x512_0_0_0 : ∀ a, (![0, 0, 0] : Fin 3 → Nat) a + S1x64x512.size a ≤ S1x64x512.size a
  h_S1x64x512 : 0 < S1x64x512.numel
  shapeCasts_S1x64x512_S64x512 : S1x64x512.ShapeCasts S64x512
  h_S1x8x512 : 0 < S1x8x512.numel
  shapeCasts_S1x8x512_S8x512 : S1x8x512.ShapeCasts S8x512
  broadcasts_S1x512_S8x512 : S1x512.Broadcasts S8x512
  shapeCasts_S8x512_S8x1x512 : S8x512.ShapeCasts S8x1x512
  shapeCasts_S64x512_S1x64x512 : S64x512.ShapeCasts S1x64x512
  broadcasts_S8x1x512_S8x64x512 : S8x1x512.Broadcasts S8x64x512
  broadcasts_S1x64x512_S8x64x512 : S1x64x512.Broadcasts S8x64x512
  shapeCasts_S8x64x512_S512x512 : S8x64x512.ShapeCasts S512x512
  broadcasts_S1x512_S512x512 : S1x512.Broadcasts S512x512
  shapeCasts_S512x512_S8x64x512 : S512x512.ShapeCasts S8x64x512
  h_S1x8x64x512 : 0 < S1x8x64x512.numel
  shapeCasts_S1x8x64x512_S8x64x512 : S1x8x64x512.ShapeCasts S8x64x512
  shapeCasts_S8x64x512_S1x8x64x512 : S8x64x512.ShapeCasts S1x8x64x512
  dot_S64x512_S512x512_S64x512_1_0_0_1_n_n_wf : DotDims.WF S64x512 S512x512 S64x512 [1] [0] [0] [1] [] []
  dot_S8x512_S512x512_S8x512_1_0_0_1_n_n_wf : DotDims.WF S8x512 S512x512 S8x512 [1] [0] [0] [1] [] []
  dot_S512x512_S512x512_S512x512_1_0_0_1_n_n_wf : DotDims.WF S512x512 S512x512 S512x512 [1] [0] [0] [1] [] []
  hrank0 : 0 < grid0.rank
  k0_mult1_dvd : 8 ∣ k0_mult1.toNat
  k0_off1_inb : ∀ (r : Fin 4), ∀ a, (k0_off1 (BitVec.ofNat 32 r.val)) a + S1x8x512.size a ≤ S1x32x512.size a
  k0_off2_inb : ∀ (r : Fin 4), ∀ a, (k0_off2 (BitVec.ofNat 32 r.val)) a + S1x8x64x512.size a ≤ S1x32x64x512.size a
  k0_mult2_dvd : 8 ∣ k0_mult2.toNat
  k0_mult3_dvd : 8 ∣ k0_mult3.toNat
  k0_mult4_dvd : 8 ∣ k0_mult4.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x512.size a ≤ S4x256x512.size a
  hwx0_0 : ∀ i : grid0.Coords, EltTy.bits .f32 = 32 ∨ (Rect.block (s := S4x256x512) S1x32x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x512.size a ≤ S4x64x512.size a
  hwx0_1 : ∀ i : grid0.Coords, EltTy.bits .f32 = 32 ∨ (Rect.block (s := S4x64x512) S1x64x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S512.size a
  hwx0_3 : ∀ i : grid0.Coords, EltTy.bits .f32 = 32 ∨ (Rect.block (s := S512) S512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .f32 = 32 ∨ (Rect.block (s := S512x512) S512x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .f32 = 32 ∨ (Rect.block (s := S512x512) S512x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512.size a ≤ S512.size a
  hwx0_6 : ∀ i : grid0.Coords, EltTy.bits .f32 = 32 ∨ (Rect.block (s := S512) S512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x32x64x512.size a ≤ S4x256x64x512.size a
  hwx0_7 : ∀ i : grid0.Coords, EltTy.bits .f32 = 32 ∨ (Rect.block (s := S4x256x64x512) S1x32x64x512.size (cc0_transform_7 i) (hinb0_7 i)).WholeWords (EltTy.packing .f32)

variable [Facts₀]

def dot_S64x512_S512x512_S64x512_1_0_0_1_n_n : DotDims S64x512 S512x512 S64x512 where
  lhsContracting := [1]
  rhsContracting := [0]
  lhsNonContracting := [0]
  rhsNonContracting := [1]
  lhsBatch := []
  rhsBatch := []
  wf := dot_S64x512_S512x512_S64x512_1_0_0_1_n_n_wf
def dot_S8x512_S512x512_S8x512_1_0_0_1_n_n : DotDims S8x512 S512x512 S8x512 where
  lhsContracting := [1]
  rhsContracting := [0]
  lhsNonContracting := [0]
  rhsNonContracting := [1]
  lhsBatch := []
  rhsBatch := []
  wf := dot_S8x512_S512x512_S8x512_1_0_0_1_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_v0) S1x32x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x64x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S1x32x64x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4x256x1x512 : Shape := ⟨4, ![4, 256, 1, 512]⟩
abbrev S4x1x64x512 : Shape := ⟨4, ![4, 1, 64, 512]⟩
abbrev S512x512 : Shape := ⟨2, ![512, 512]⟩
abbrev S512 : Shape := ⟨1, ![512]⟩
abbrev S1x1x1x512 : Shape := ⟨4, ![1, 1, 1, 512]⟩
abbrev S4x256x64x512 : Shape := ⟨4, ![4, 256, 64, 512]⟩

abbrev nBuf : Space → Nat
  | .hbm => 20
  | .vmem => 0
  | .smem => 0
  | _ => 0

abbrev bufTy : (tb : Table) → Fin (tcTables nBuf tb) → BufTy
  | .hbm, ⟨0, _⟩ => ⟨S4x256x1x512, .f32⟩
  | .hbm, ⟨1, _⟩ => ⟨S4x1x64x512, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512x512, .f32⟩
  | .hbm, ⟨6, _⟩ => ⟨S512, .f32⟩
  | .hbm, ⟨7, _⟩ => ⟨S4x256x1x512, .f32⟩
  | .hbm, ⟨8, _⟩ => ⟨S1x1x1x512, .f32⟩
  | .hbm, ⟨9, _⟩ => ⟨S4x256x1x512, .f32⟩
  | .hbm, ⟨10, _⟩ => ⟨S4x256x1x512, .f32⟩
  | .hbm, ⟨11, _⟩ => ⟨S4x1x64x512, .f32⟩
  | .hbm, ⟨12, _⟩ => ⟨S4x256x64x512, .f32⟩
  | .hbm, ⟨13, _⟩ => ⟨S4x256x64x512, .f32⟩
  | .hbm, ⟨14, _⟩ => ⟨S4x256x64x512, .f32⟩
  | .hbm, ⟨15, _⟩ => ⟨S4x256x64x512, .f32⟩
  | .hbm, ⟨16, _⟩ => ⟨S4x256x64x512, .f32⟩
  | .hbm, ⟨17, _⟩ => ⟨S1x1x1x512, .f32⟩
  | .hbm, ⟨18, _⟩ => ⟨S4x256x64x512, .f32⟩
  | .hbm, ⟨19, _⟩ => ⟨S4x256x64x512, .f32⟩
  | _, _ => ⟨S4x256x1x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩

abbrev nD : Nat := 1
abbrev τ : Topo := Topo.v7x

variable {F : FTy → Type} [FloatOps F]

class Facts₀ : Prop where
  bcast_S512_S1x1x1x512_3 : S512.BroadcastsInDim S1x1x1x512 (![3] : Fin 1 → Fin S1x1x1x512.rank)
  bcast_S1x1x1x512_S4x256x1x512_0_1_2_3 : S1x1x1x512.BroadcastsInDim S4x256x1x512 (![0, 1, 2, 3] : Fin 4 → Fin S4x256x1x512.rank)
  bcast_S4x256x1x512_S4x256x64x512_0_1_2_3 : S4x256x1x512.BroadcastsInDim S4x256x64x512 (![0, 1, 2, 3] : Fin 4 → Fin S4x256x64x512.rank)
  bcast_S4x1x64x512_S4x256x64x512_0_1_2_3 : S4x1x64x512.BroadcastsInDim S4x256x64x512 (![0, 1, 2, 3] : Fin 4 → Fin S4x256x64x512.rank)
  bcast_S1x1x1x512_S4x256x64x512_0_1_2_3 : S1x1x1x512.BroadcastsInDim S4x256x64x512 (![0, 1, 2, 3] : Fin 4 → Fin S4x256x64x512.rank)
  dot_S4x256x1x512_S512x512_S4x256x1x512_3_0_012_1_n_n_wf : DotDims.WF S4x256x1x512 S512x512 S4x256x1x512 [3] [0] [0, 1, 2] [1] [] []
  dot_S4x1x64x512_S512x512_S4x1x64x512_3_0_012_1_n_n_wf : DotDims.WF S4x1x64x512 S512x512 S4x1x64x512 [3] [0] [0, 1, 2] [1] [] []
  dot_S4x256x64x512_S512x512_S4x256x64x512_3_0_012_1_n_n_wf : DotDims.WF S4x256x64x512 S512x512 S4x256x64x512 [3] [0] [0, 1, 2] [1] [] []

variable [Facts₀]

def dot_S4x256x1x512_S512x512_S4x256x1x512_3_0_012_1_n_n : DotDims S4x256x1x512 S512x512 S4x256x1x512 where
  lhsContracting := [3]
  rhsContracting := [0]
  lhsNonContracting := [0, 1, 2]
  rhsNonContracting := [1]
  lhsBatch := []
  rhsBatch := []
  wf := dot_S4x256x1x512_S512x512_S4x256x1x512_3_0_012_1_n_n_wf
def dot_S4x1x64x512_S512x512_S4x1x64x512_3_0_012_1_n_n : DotDims S4x1x64x512 S512x512 S4x1x64x512 where
  lhsContracting := [3]
  rhsContracting := [0]
  lhsNonContracting := [0, 1, 2]
  rhsNonContracting := [1]
  lhsBatch := []
  rhsBatch := []
  wf := dot_S4x1x64x512_S512x512_S4x1x64x512_3_0_012_1_n_n_wf
def dot_S4x256x64x512_S512x512_S4x256x64x512_3_0_012_1_n_n : DotDims S4x256x64x512 S512x512 S4x256x64x512 where
  lhsContracting := [3]
  rhsContracting := [0]
  lhsNonContracting := [0, 1, 2]
  rhsNonContracting := [1]
  lhsBatch := []
  rhsBatch := []
  wf := dot_S4x256x64x512_S512x512_S4x256x64x512_3_0_012_1_n_n_wf

class Facts : Prop extends Facts₀ where

variable [Facts]
-- ==== Proof.LibPlainMatmul.lean ====
/-
  A matrix product into a zero accumulator, read at one entry, over the extended reals.

  For any extents M, K, N: the product of an M×K matrix and a K×N matrix with the plain dimension numbers (the left
  operand's axis 1 contracted with the right operand's axis 0, no batch axes), accumulated into the zero matrix, is at
  entry (p, n) the sum over k of left(p, k) · right(k, n). The accumulator contributes 0 + ·, the contraction index
  of the product is one coordinate k, and the operand indices at (p, n) and k are (p, k) and (k, n).
-/
import Idealize.ShloMosaic.Lib.ValueIdx
import Idealize.ShloMosaic.PureOps.Ideal.Laws

namespace Cert.LibPlainMatmul

open Idealize.ShloMosaic Idealize.ShloMosaic.ValueIdx

/-- The left operand's index at result entry `(p, n)` and contraction coordinate `k` is `(p, k)`. -/
theorem plain_lhsIdx {M K N : ℕ} (p : Fin M) (n : Fin N) (k : Fin K) :
    (DotDims.plain M K N).lhsIdx (ix2 p n) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl _ _).trans
        (contrEquiv1_symm_val (DotDims.plain M K N) K rfl rfl k))

/-- The right operand's index at result entry `(p, n)` and contraction coordinate `k` is `(k, n)`. -/
theorem plain_rhsIdx {M K N : ℕ} (p : Fin M) (n : Fin N) (k : Fin K) :
    (DotDims.plain M K N).rhsIdx (ix2 p n) ((contrEquiv1 (DotDims.plain M K N) K rfl rfl).symm k) = ix2 k n :=
  funext fun a => Fin.ext (by
    match a with
    | ⟨0, _⟩ =>
      exact ((DotDims.plain M K N).rhsIdx_val_of_single rfl _ _).trans
        (contrEquiv1_symm_val (DotDims.plain M K N) K rfl rfl k)
    | ⟨1, _⟩ => rfl)

/-- An M×K matrix times a K×N matrix into the zero accumulator, at entry `(p, n)`: `∑ k, l (p, k) * r (k, n)`. -/
theorem matmul_plain_zero_apply {M K N : ℕ} {φ₁ φ₂ : FTy} (prec : Option ContractPrecision)
    (l : FVec Ideal ⟨2, ![M, K]⟩ φ₁) (r : FVec Ideal ⟨2, ![K, N]⟩ φ₂) (p : Fin M) (n : Fin N) :
    matmul (DotDims.plain M K N) prec l r (constant (F := Ideal) ⟨2, ![M, N]⟩ .f32 0x00000000#32) (ix2 p n)
      = ∑ k : Fin K, l (ix2 p k) * r (ix2 k n) := by
  show FloatOps.matmul _ _ _ _ _ _ = _
  rw [Ideal.matmul_constant_zero_apply, ← Equiv.sum_comp (contrEquiv1 (DotDims.plain M K N) K rfl rfl).symm]
  refine Finset.sum_congr rfl fun k _ => ?_
  rw [plain_lhsIdx, plain_rhsIdx]

/-- The same for any dimension-numbers record `D` that is the plain one (a printed program names its own record). -/
theorem matmul_eq_plain_zero_apply {M K N : ℕ} {φ₁ φ₂ : FTy} (D : DotDims ⟨2, ![M, K]⟩ ⟨2, ![K, N]⟩ ⟨2, ![M, N]⟩)
    (hD : D = DotDims.plain M K N) (prec : Option ContractPrecision)
    (l : FVec Ideal ⟨2, ![M, K]⟩ φ₁) (r : FVec Ideal ⟨2, ![K, N]⟩ φ₂) (p : Fin M) (n : Fin N) :
    matmul D prec l r (constant (F := Ideal) ⟨2, ![M, N]⟩ .f32 0x00000000#32) (ix2 p n)
      = ∑ k : Fin K, l (ix2 p k) * r (ix2 k n) := by
  subst hD; exact matmul_plain_zero_apply prec l r p n

end Cert.LibPlainMatmul
-- ==== Proof.LibRelayout.lean ====
/-
  Re-laid arrays read at an index given by coordinates, for any extents: the shape casts and broadcasts that a
  projection of a [1, a, 1, b] or [1, 1, a, b] block to a matrix, a sum of an [a, 1, c] and a [1, b, c] array
  over [a, b, c], and the flattening of [a, b, c] to [a * b, c] (and back) go through.

  • `shapeCast_1a1b_ab_apply`, `shapeCast_11ab_ab_apply`: a block with unit axes cast to the matrix of its two
    real axes reads, at (i, j), the operand at (0, i, 0, j), respectively (0, 0, i, j).
  • `shapeCast_ab_a1b_apply`: a matrix cast to [a, 1, b] reads, at (i, z, j), the operand at (i, j).
  • `broadcastTo_a1c_abc_apply`, `broadcastTo_1bc_abc_apply`: an array with a unit middle (leading) axis broadcast
    along it reads, at (i, k, j), the operand at (i, 0, j), respectively (0, k, j).
  • `shapeCast_abc_nc_apply`, `shapeCast_nc_abc_apply`: [a, b, c] flattened to [n, c] with n = a * b, and back:
    row r = i * b + k of the flat array is row (i, k) of the other.
  Each is the library's general lemma for the operation with the row-major, or per-axis, arithmetic done.
-/
import Idealize.ShloMosaic.Lib.ValueLayout

namespace Cert.LibRelayout

open Idealize.ShloMosaic Idealize.ShloMosaic.ValueIdx

variable {α : Type}

/-- A `[1, a, 1, b]` array cast to `[a, b]` reads, at `(i, j)`, the operand at `(0, i, 0, j)`. -/
theorem shapeCast_1a1b_ab_apply {a b : ℕ} (x : (⟨4, ![1, a, 1, b]⟩ : Shape).Idx → α)
    (h : (⟨4, ![1, a, 1, b]⟩ : Shape).ShapeCasts ⟨2, ![a, b]⟩) (i : Fin a) (j : Fin b) :
    shapeCast ⟨2, ![a, b]⟩ x h (ix2 i j) = x (ix4 (0 : Fin 1) i (0 : Fin 1) j) :=
  shapeCast_apply x h _ _ (by
    rw [Shape.rowMajor_val_four, Shape.rowMajor_val_two]
    show ((0 * a + i.val) * 1 + 0) * b + j.val = i.val * b + j.val
    simp only [Nat.zero_mul, Nat.zero_add, Nat.mul_one, Nat.add_zero])

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add, Nat.mul_one, Nat.add_zero])

/-- An `[a, b]` array cast to `[a, 1, b]` reads, at `(i, z, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (z : Fin 1) (j : Fin b) :
    shapeCast ⟨3, ![a, 1, b]⟩ x h (ix3 i z j) = x (ix2 i j) :=
  shapeCast_apply x h _ _ (by
    have hz : z.val = 0 := by omega
    rw [Shape.rowMajor_val_three, Shape.rowMajor_val_two]
    show i.val * b + j.val = (i.val * 1 + z.val) * b + j.val
    rw [hz, Nat.mul_one, Nat.add_zero])

/-- An `[a, 1, c]` array broadcast to `[a, b, c]` reads, at `(i, k, j)`, the operand at `(i, 0, j)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (k : Fin b) (j : Fin c) :
    broadcastTo ⟨3, ![a, b, c]⟩ v h (ix3 i k j) = v (ix3 i (0 : Fin 1) j) := by
  refine broadcastTo_apply v h (ix3 i k j) (ix3 i (0 : Fin 1) j) fun ax => ?_
  match ax with
  | ⟨0, _⟩ =>
    show i.val = if a = 1 then 0 else i.val
    split
    · have := i.isLt; omega
    · rfl
  | ⟨1, _⟩ => rfl
  | ⟨2, _⟩ =>
    show j.val = if c = 1 then 0 else j.val
    split
    · have := j.isLt; omega
    · rfl

/-- A `[1, b, c]` array broadcast to `[a, b, c]` reads, at `(i, k, j)`, the operand at `(0, k, j)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (k : Fin b) (j : Fin c) :
    broadcastTo ⟨3, ![a, b, c]⟩ v h (ix3 i k j) = v (ix3 (0 : Fin 1) k j) := by
  refine broadcastTo_apply v h (ix3 i k j) (ix3 (0 : Fin 1) k j) fun ax => ?_
  match ax with
  | ⟨0, _⟩ => rfl
  | ⟨1, _⟩ =>
    show k.val = if b = 1 then 0 else k.val
    split
    · have := k.isLt; omega
    · rfl
  | ⟨2, _⟩ =>
    show j.val = if c = 1 then 0 else j.val
    split
    · have := j.isLt; omega
    · rfl

/-- An `[a, b, c]` array flattened to `[n, c]` (so `n = a * b`) reads, at row `r = i * b + k` and column `j`, the
    operand at `(i, k, j)`. -/
theorem shapeCast_abc_nc_apply {a b c n : ℕ} (x : (⟨3, ![a, b, c]⟩ : Shape).Idx → α)
    (h : (⟨3, ![a, b, c]⟩ : Shape).ShapeCasts ⟨2, ![n, c]⟩) (i : Fin a) (k : Fin b) (j : Fin c) (r : Fin n)
    (hr : r.val = i.val * b + k.val) : shapeCast ⟨2, ![n, c]⟩ x h (ix2 r j) = x (ix3 i k j) :=
  shapeCast_apply x h _ _ (by
    rw [Shape.rowMajor_val_three, Shape.rowMajor_val_two]
    show (i.val * b + k.val) * c + j.val = r.val * c + j.val
    rw [hr])

/-- An `[n, c]` array cast to `[a, b, c]` (so `n = a * b`) reads, at `(i, k, j)`, the operand at row
    `r = i * b + k` and column `j`. -/
theorem shapeCast_nc_abc_apply {a b c n : ℕ} (x : (⟨2, ![n, c]⟩ : Shape).Idx → α)
    (h : (⟨2, ![n, c]⟩ : Shape).ShapeCasts ⟨3, ![a, b, c]⟩) (i : Fin a) (k : Fin b) (j : Fin c) (r : Fin n)
    (hr : r.val = i.val * b + k.val) : shapeCast ⟨3, ![a, b, c]⟩ x h (ix3 i k j) = x (ix2 r j) :=
  shapeCast_apply x h _ _ (by
    rw [Shape.rowMajor_val_two, Shape.rowMajor_val_three]
    show r.val * c + j.val = (i.val * b + k.val) * c + j.val
    rw [hr])

end Cert.LibRelayout
-- ==== Proof.JointSpec.lean ====
/-
  The joint network's output entry as one formula over the extended reals.

  For an encoder row e and a decoder row d (512 numbers each), the hidden activation at channel j is
      act j = tanh ((∑ k, e k · W_enc (k, j) + b_enc j) + ∑ k, d k · W_dec (k, j)),
  and the output at vocabulary entry v is
      out v = (∑ j, act j · W_out (j, v)) + b_out v.
  Both programs compute exactly this, with the sums taken in this order and grouped in this way; the two differ only in
  how the rows e and d are found in the arrays (which batch, which time step, which label position).
-/
import Idealize.ShloMosaic.PureOps.Ideal
import Idealize.ShloMosaic.Lib.ValueIdx

noncomputable section

namespace Cert.Joint

open Idealize.ShloMosaic Idealize.ShloMosaic.ValueIdx

/-- A 512×512 matrix and a length-512 vector of extended reals. -/
abbrev Mat := (⟨2, ![512, 512]⟩ : Shape).Idx → EReal
abbrev Vct := (⟨1, ![512]⟩ : Shape).Idx → EReal

/-- The hidden activation at channel `j` for encoder row `e` and decoder row `d`. -/
def act (We Wd : Mat) (be : Vct) (e d : Fin 512 → EReal) (j : Fin 512) : EReal :=
  Ideal.tanh ((∑ k : Fin 512, e k * We (ix2 k j) + be (ix1 j)) + ∑ k : Fin 512, d k * Wd (ix2 k j))

/-- The output at vocabulary entry `v` for encoder row `e` and decoder row `d`. -/
def out (We Wd Wo : Mat) (be bo : Vct) (e d : Fin 512 → EReal) (v : Fin 512) : EReal :=
  (∑ j : Fin 512, act We Wd be e d j * Wo (ix2 j v)) + bo (ix1 v)

/-- The output depends on the two rows entry by entry: equal rows and equal vocabulary entries give equal outputs. -/
theorem out_congr (We Wd Wo : Mat) (be bo : Vct) {e e' d d' : Fin 512 → EReal} {v v' : Fin 512}
    (he : ∀ k, e k = e' k) (hd : ∀ k, d k = d' k) (hv : v = v') :
    out We Wd Wo be bo e d v = out We Wd Wo be bo e' d' v' := by
  obtain rfl : e = e' := funext he
  obtain rfl : d = d' := funext hd
  subst hv; rfl

end Cert.Joint

end
-- ==== Proof.JointChunk.lean ====
/-
  One chunk of the kernel's body, read at an entry.

  The body handles its 32 encoder rows in four chunks of 8. For each chunk it forms, from the 8 encoder rows, the 64
  decoder rows and the weights, an [1, 8, 64, 512] piece of the output block. The four chunks are the same operations of
  the same weights, biases and decoder block; only the 8 encoder rows differ. This module names that one term
  (`chunkTerm`) and reads it at entry (0, r, u, v): the output formula `Joint.out` at encoder row r of the chunk and
  decoder row u of the block.

  The reading goes through the operations from the result inwards: the flattened [512, 512] product has row r·64 + u;
  its left operand at (r·64 + u, j) is tanh of (encoder projection at (r, j)) + (decoder projection at (u, j)), each a
  matrix product into a zero accumulator, the encoder one with its bias row added; a change of float format is the
  identity on the extended reals.
-/
import proofs.«142362_j24309514896038_2_alg».proof.Proof.Gen.KernelIdeal.Skeleton
import proofs.«142362_j24309514896038_2_alg».proof.Proof.LibPlainMatmul
import proofs.«142362_j24309514896038_2_alg».proof.Proof.LibRelayout
import proofs.«142362_j24309514896038_2_alg».proof.Proof.JointSpec
import Idealize.ShloMosaic.Lib.ValueLayout
import Idealize.ShloMosaic.Lib.Pipeline.Value

noncomputable section

namespace Cert.KernelIdeal.Chunk

open Cert.KernelIdeal Cert.KernelIdeal.Gen Idealize.ShloMosaic Idealize.ShloMosaic.ValueIdx

variable {F : FTy → Type} [FloatOps F]

/-- One chunk's [1, 8, 64, 512] result from the weights, the biases, the decoder block and 8 encoder rows. -/
def chunkTerm (We Wd Wo : Vec F S512x512 .f32) (be bo : Vec F S512 .f32) (hd : Vec F S1x64x512 .f32)
    (he : Vec F S1x8x512 .f32) : FVec F S1x8x64x512 .f32 :=
  k0_pay9 (k0_pay8 We Wd Wo be bo hd he)

/-- The second, third and fourth chunks' stored values are the same term of their own 8 rows. -/
theorem pay10_eq (We Wd Wo : Vec F S512x512 .f32) (be bo : Vec F S512 .f32) (hd : Vec F S1x64x512 .f32)
    (he : Vec F S1x8x512 .f32) :
    k0_pay10 (k0_pay3 We) (k0_pay4 Wo) (k0_pay5 be) (k0_pay6 bo) (k0_pay7 Wd hd) he
      = chunkTerm We Wd Wo be bo hd he := rfl

theorem pay1_eq (We Wd Wo : Vec F S512x512 .f32) (be bo : Vec F S512 .f32) (hd : Vec F S1x64x512 .f32)
    (he : Vec F S1x8x512 .f32) :
    k0_pay1 (k0_pay4 Wo) (k0_pay6 bo) (k0_pay11 (k0_pay3 We) (k0_pay5 be) (k0_pay7 Wd hd) he)
      = chunkTerm We Wd Wo be bo hd he := rfl

theorem pay2_eq (We Wd Wo : Vec F S512x512 .f32) (be bo : Vec F S512 .f32) (hd : Vec F S1x64x512 .f32)
    (he : Vec F S1x8x512 .f32) :
    k0_pay2 (k0_pay3 We) (k0_pay4 Wo) (k0_pay5 be) (k0_pay6 bo) (k0_pay7 Wd hd) he
      = chunkTerm We Wd Wo be bo hd he := rfl

/-- The chunk's entry (0, r, u, v) is the output formula at the chunk's encoder row r and the block's decoder row u. -/
theorem chunkTerm_apply (We Wd Wo : Vec Ideal S512x512 .f32) (be bo : Vec Ideal S512 .f32)
    (hd : Vec Ideal S1x64x512 .f32) (he : Vec Ideal S1x8x512 .f32) (r : Fin 8) (u : Fin 64) (v : Fin 512) :
    chunkTerm We Wd Wo be bo hd he (ix4 (0 : Fin 1) r u v)
      = Joint.out We Wd Wo be bo (fun k => he (ix3 (0 : Fin 1) r k)) (fun k => hd (ix3 (0 : Fin 1) u k)) v := by
  unfold chunkTerm k0_pay9 k0_pay8 k0_pay7 k0_pay6 k0_pay5 k0_pay4 k0_pay3
  dsimp only
  -- the result entry: row r * 64 + u of the flattened product, plus the output bias at v
  rw [shapeCast_abc_1abc_apply,
    LibRelayout.shapeCast_nc_abc_apply _ _ r u v (⟨r.val * 64 + u.val, by omega⟩ : Fin 512) rfl,
    addf_apply,
    LibPlainMatmul.matmul_eq_plain_zero_apply dot_S512x512_S512x512_S512x512_1_0_0_1_n_n rfl,
    broadcastTo_1b_ab_apply, shapeCast_a_1a_apply]
  unfold Joint.out
  refine congrArg (· + bo (ix1 v)) (Finset.sum_congr rfl fun j _ => ?_)
  -- the product's left operand at (r * 64 + u, j): tanh of the two projections' sum at (r, u, j)
  rw [truncf_apply,
    LibRelayout.shapeCast_abc_nc_apply _ _ r u j (⟨r.val * 64 + u.val, by omega⟩ : Fin 512) rfl, truncf_apply]
  refine congrArg (· * Wo (ix2 j v)) ?_
  show Ideal.tanh _ = _
  unfold Joint.act
  refine congrArg Ideal.tanh ?_
  rw [addf_apply, LibRelayout.broadcastTo_a1c_abc_apply, LibRelayout.shapeCast_ab_a1b_apply, addf_apply,
    LibPlainMatmul.matmul_eq_plain_zero_apply dot_S8x512_S512x512_S8x512_1_0_0_1_n_n rfl,
    broadcastTo_1b_ab_apply, shapeCast_a_1a_apply,
    LibRelayout.broadcastTo_1bc_abc_apply, shapeCast_ab_1ab_apply,
    LibPlainMatmul.matmul_eq_plain_zero_apply dot_S64x512_S512x512_S64x512_1_0_0_1_n_n rfl]
  simp only [truncf_apply, shapeCast_1ab_ab_apply]

end Cert.KernelIdeal.Chunk

end
-- ==== Proof.JointBlock.lean ====
/-
  What the body leaves in the output block, as one function of its input blocks.

  The output block has shape [1, 32, 64, 512]. The body fills it with four stores, rows 8c .. 8c + 7 of the block's
  second axis for c = 0, 1, 2, 3, each store the chunk term of encoder rows 8c .. 8c + 7. So at (0, r, u, v) the block
  holds the output formula at encoder row r of the 32-row encoder block and decoder row u of the decoder block,
  whichever store wrote it: every store is a tile of that one function, and the four tiles cover the block.
-/
import proofs.«142362_j24309514896038_2_alg».proof.Proof.Gen.KernelIdeal.Frame
import proofs.«142362_j24309514896038_2_alg».proof.Proof.JointChunk

set_option maxRecDepth 16384

noncomputable section

namespace Cert.KernelIdeal.Block

open Cert.KernelIdeal Cert.KernelIdeal.Gen Cert.KernelIdeal.Chunk Idealize.ShloMosaic Idealize.ShloMosaic.TcCoe
open Idealize.ShloMosaic.ValueIdx Idealize.ShloMosaic.Tactic Idealize.SL.Sem

/-- The output block as a function of the input blocks: at (·, r, u, v) the output formula at encoder row r and
    decoder row u. -/
def blockVal (x0 : Vec Ideal S1x32x512 .f32) (x1 : Vec Ideal S1x64x512 .f32) (x2 : Vec Ideal S512x512 .f32)
    (x3 : Vec Ideal S512 .f32) (x4 x5 : Vec Ideal S512x512 .f32) (x6 : Vec Ideal S512 .f32) :
    Vec Ideal S1x32x64x512 .f32 := fun y =>
  Joint.out x2 x4 x5 x3 x6 (fun k => x0 (ix3 (0 : Fin 1) (⟨(y 1).val, (y 1).isLt⟩ : Fin 32) k))
    (fun k => x1 (ix3 (0 : Fin 1) (⟨(y 2).val, (y 2).isLt⟩ : Fin 64) k)) (⟨(y 3).val, (y 3).isLt⟩ : Fin 512)

/-- A store of the chunk term of encoder rows o .. o + 7 at rows o .. o + 7 of the block is a tile of `blockVal`. -/
theorem piece_eq (o : ℕ)
    (inb4 : ∀ a, (![0, o, 0, 0] : Fin 4 → ℕ) a + (![1, 8, 64, 512] : Fin 4 → ℕ) a ≤ S1x32x64x512.size a)
    (inb3 : ∀ a, (![0, o, 0] : Fin 3 → ℕ) a + (![1, 8, 512] : Fin 3 → ℕ) a ≤ S1x32x512.size a)
    (x0 : Vec Ideal S1x32x512 .f32) (x1 : Vec Ideal S1x64x512 .f32) (x2 : Vec Ideal S512x512 .f32)
    (x3 : Vec Ideal S512 .f32) (x4 x5 : Vec Ideal S512x512 .f32) (x6 : Vec Ideal S512 .f32)
    (x : (⟨4, ![1, 8, 64, 512]⟩ : Shape).Idx) :
    chunkTerm x2 x4 x5 x3 x6 x1 (View.ld x0 (Rect.unit (s := S1x32x512) ![0, o, 0] ![1, 8, 512] inb3)) x
      = blockVal x0 x1 x2 x3 x4 x5 x6 ((Rect.unit (s := S1x32x64x512) ![0, o, 0, 0] ![1, 8, 64, 512] inb4).emb x) := by
  obtain ⟨a, r, u, v, rfl⟩ : ∃ (a : Fin 1) (r : Fin 8) (u : Fin 64) (v : Fin 512), x = ix4 a r u v :=
    ⟨x 0, x 1, x 2, x 3, eq_ix4 x⟩
  obtain rfl : a = 0 := Subsingleton.elim _ _
  rw [chunkTerm_apply]
  unfold blockVal
  refine Joint.out_congr _ _ _ _ _ (fun k => ?_) (fun k => ?_) ?_
  · refine congrArg x0 (funext fun b => Fin.ext ?_)
    match b with
    | ⟨0, _⟩ => rfl
    | ⟨1, _⟩ => rfl
    | ⟨2, _⟩ => show 0 + 1 * k.val = k.val; omega
  · refine congrArg x1 (funext fun b => Fin.ext ?_)
    match b with
    | ⟨0, _⟩ => rfl
    | ⟨1, _⟩ => show u.val = 0 + 1 * u.val; omega
    | ⟨2, _⟩ => rfl
  · exact Fin.ext (show v.val = 0 + 1 * v.val by omega)

theorem hz2 : (![0, 0] : Fin 2 → ℕ) = fun _ => 0 := funext fun a => by fin_cases a <;> rfl
theorem hz1 : (![0] : Fin 1 → ℕ) = fun _ => 0 := funext fun a => by fin_cases a; rfl
theorem hz3 : (![0, 0, 0] : Fin 3 → ℕ) = fun _ => 0 := funext fun a => by fin_cases a <;> rfl

/-- The first chunk's stored value is the chunk term by definition. -/
theorem pay9_eq {F : FTy → Type} [FloatOps F] (We Wd Wo : Vec F S512x512 .f32) (be bo : Vec F S512 .f32)
    (hd : Vec F S1x64x512 .f32) (he : Vec F S1x8x512 .f32) :
    k0_pay9 (k0_pay8 We Wd Wo be bo hd he) = chunkTerm We Wd Wo be bo hd he := rfl

/-- WHAT THE BODY LEAVES in the output's staging buffer, on any whole staging buffers holding the blocks x0 .. x6:
    the block function of those blocks. The body's four stores tile the block, and each is a tile of `blockVal`. -/
theorem out0_A_7_eq (c : Dev nD) (i : grid0.Coords) (arg2 : Memref sig .tc .vmem S1x32x512 .f32) (harg2 : arg2.IsWhole) (arg3 : Memref sig .tc .vmem S1x64x512 .f32) (harg3 : arg3.IsWhole) (arg4 : Memref sig .tc .vmem S512x512 .f32) (harg4 : arg4.IsWhole) (arg5 : Memref sig .tc .vmem S512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512 .f32) (harg8 : arg8.IsWhole) (arg9 : Memref sig .tc .vmem S1x32x64x512 .f32) (harg9 : arg9.IsWhole)
    (x0 : Vec Ideal S1x32x512 .f32) (x1 : Vec Ideal S1x64x512 .f32) (x2 : Vec Ideal S512x512 .f32) (x3 : Vec Ideal S512 .f32) (x4 : Vec Ideal S512x512 .f32) (x5 : Vec Ideal S512x512 .f32) (x6 : Vec Ideal S512 .f32) :
    out0_A_7 (F := Ideal) c i arg2 harg2 arg3 harg3 arg4 harg4 arg5 harg5 arg6 harg6 arg7 harg7 arg8 harg8 arg9 harg9 x0 x1 x2 x3 x4 x5 x6 = blockVal x0 x1 x2 x3 x4 x5 x6 := by
  unfold out0_A_7
  rw [View.read_writes_junk_eq_canon]
  funext y
  refine View.canon_apply_of_pieces (blockVal x0 x1 x2 x3 x4 x5 x6) _ ?_ y
    (cover0_A_7 c i arg2 harg2 arg3 harg3 arg4 harg4 arg5 harg5 arg6 harg6 arg7 harg7 arg8 harg8 arg9 harg9 x0 x1 x2 x3 x4 x5 x6 y)
  unfold kernelRun0_A
  dsimp only
  sl_unfold_words
  simp only [View.readAt_eq_ld, harg2.read_unread, harg3.read_unread, harg4.read_unread, harg5.read_unread,
    harg6.read_unread, harg7.read_unread, harg8.read_unread, View.ld_unit_zero (S := S512x512) hz2,
    View.ld_unit_zero (S := S512) hz1, View.ld_unit_zero (S := S1x64x512) hz3, pay9_eq, pay10_eq, pay1_eq, pay2_eq]
  intro p hp
  simp only [List.mem_cons, List.not_mem_nil, or_false] at hp
  rcases hp with rfl | rfl | rfl | rfl
  · exact fun x => piece_eq 24 (by decide) (by decide) x0 x1 x2 x3 x4 x5 x6 x
  · exact fun x => piece_eq 16 (by decide) (by decide) x0 x1 x2 x3 x4 x5 x6 x
  · exact fun x => piece_eq 8 (by decide) (by decide) x0 x1 x2 x3 x4 x5 x6 x
  · exact fun x => piece_eq 0 (by decide) (by decide) x0 x1 x2 x3 x4 x5 x6 x

end Cert.KernelIdeal.Block

end
-- ==== Proof.JointWhole.lean ====
/-
  The whole output array of the joint network as one function of the seven argument arrays.

  Entry (b, t, u, v) of the [4, 256, 64, 512] result is the output formula at encoder row h_enc (b, t, 0, ·) and
  decoder row h_dec (b, 0, u, ·): the encoder array has a unit axis where the label positions go, the decoder array one
  where the time steps go, and the sum of the two projections broadcasts each along the other's axis.
-/
import proofs.«142362_j24309514896038_2_alg».proof.Proof.JointSpec

noncomputable section

namespace Cert.Joint

open Idealize.ShloMosaic Idealize.ShloMosaic.ValueIdx

/-- The result array, from the arguments in the programs' order: h_enc, h_dec, W_enc, b_enc, W_dec, W_out, b_out. -/
def arr (henc : (⟨4, ![4, 256, 1, 512]⟩ : Shape).Idx → EReal) (hdec : (⟨4, ![4, 1, 64, 512]⟩ : Shape).Idx → EReal)
    (We : Mat) (be : Vct) (Wd Wo : Mat) (bo : Vct) : (⟨4, ![4, 256, 64, 512]⟩ : Shape).Idx → EReal := fun i =>
  out We Wd Wo be bo
    (fun k => henc (ix4 (⟨(i 0).val, (i 0).isLt⟩ : Fin 4) (⟨(i 1).val, (i 1).isLt⟩ : Fin 256) (0 : Fin 1) k))
    (fun k => hdec (ix4 (⟨(i 0).val, (i 0).isLt⟩ : Fin 4) (0 : Fin 1) (⟨(i 2).val, (i 2).isLt⟩ : Fin 64) k))
    (⟨(i 3).val, (i 3).isLt⟩ : Fin 512)

end Cert.Joint

end
-- ==== Proof.LibSqueeze.lean ====
/-
  A unit axis in the middle of a rank-4 array squeezed away, read at coordinates, for any extents.

  • `shapeCast_ab1c_abc_apply`: an [a, b, 1, c] array cast to [a, b, c] reads, at (i, j, k), the operand at (i, j, 0, k).
  • `shapeCast_a1bc_abc_apply`: an [a, 1, b, c] array cast to [a, b, c] reads, at (i, j, k), the operand at (i, 0, j, k).
  Both are the library's general reading of a shape cast (equal row-major positions) with the position arithmetic done:
  a unit axis contributes a factor 1 and a summand 0.
-/
import Idealize.ShloMosaic.Lib.ValueLayout

namespace Cert.LibSqueeze

open Idealize.ShloMosaic Idealize.ShloMosaic.ValueIdx

variable {α : Type}

/-- An `[a, b, 1, c]` array cast to `[a, b, c]` reads, at `(i, j, k)`, the operand at `(i, j, 0, k)`. -/
theorem shapeCast_ab1c_abc_apply {a b c : ℕ} (x : (⟨4, ![a, b, 1, c]⟩ : Shape).Idx → α)
    (h : (⟨4, ![a, b, 1, c]⟩ : Shape).ShapeCasts ⟨3, ![a, b, c]⟩) (i : Fin a) (j : Fin b) (k : Fin c) :
    shapeCast ⟨3, ![a, b, c]⟩ x h (ix3 i j k) = x (ix4 i j (0 : Fin 1) k) :=
  shapeCast_apply x h _ _ (by
    rw [Shape.rowMajor_val_four, Shape.rowMajor_val_three]
    show ((i.val * b + j.val) * 1 + 0) * c + k.val = (i.val * b + j.val) * c + k.val
    simp only [Nat.mul_one, Nat.add_zero])

/-- An `[a, 1, b, c]` array cast to `[a, b, c]` reads, at `(i, j, k)`, the operand at `(i, 0, j, k)`. -/
theorem shapeCast_a1bc_abc_apply {a b c : ℕ} (x : (⟨4, ![a, 1, b, c]⟩ : Shape).Idx → α)
    (h : (⟨4, ![a, 1, b, c]⟩ : Shape).ShapeCasts ⟨3, ![a, b, c]⟩) (i : Fin a) (j : Fin b) (k : Fin c) :
    shapeCast ⟨3, ![a, b, c]⟩ x h (ix3 i j k) = x (ix4 i (0 : Fin 1) j k) :=
  shapeCast_apply x h _ _ (by
    rw [Shape.rowMajor_val_four, Shape.rowMajor_val_three]
    show ((i.val * 1 + 0) * b + j.val) * c + k.val = (i.val * b + j.val) * c + k.val
    simp only [Nat.mul_one, Nat.add_zero])

end Cert.LibSqueeze
-- ==== Proof.JointArray.lean ====
/-
  The kernel's result array after the run, as one function of the arrays the region finds.

  The grid has 4 × 8 points; point (b, s) takes encoder rows 32 s .. 32 s + 31 of batch b, the decoder block of batch b
  and the whole weights, and writes block (b, s) of the result. Read through the windows, the block function of
  JointBlock at block coordinate (0, r, u, v) is the result formula at array coordinate (b, 32 s + r, u, v); the 32
  blocks tile the array, so the array ends holding that formula everywhere. The two arrays the region finds for the
  encoder and the decoder are the arguments with their unit axis squeezed away by the host.
-/
import proofs.«142362_j24309514896038_2_alg».proof.Proof.Gen.KernelIdeal.Value
import proofs.«142362_j24309514896038_2_alg».proof.Proof.JointBlock
import proofs.«142362_j24309514896038_2_alg».proof.Proof.JointWhole
import proofs.«142362_j24309514896038_2_alg».proof.Proof.LibSqueeze
import Idealize.ShloMosaic.Lib.StableHlo.Run

set_option maxRecDepth 16384

noncomputable section

namespace Cert.KernelIdeal.Whole

open Cert.KernelIdeal Cert.KernelIdeal.Gen Cert.KernelIdeal.Block Idealize.ShloMosaic Idealize.ShloMosaic.TcCoe
open Idealize.ShloMosaic.ValueIdx Idealize.SL.Sem
open Idealize.ShloMosaic.Pipeline (Dat)

variable (m : (ℓ : Loc nD τ sig) → Buf (Elt Ideal) ℓ) (ρ : Dev nD → PrngReg)

/-- The result array as a function of the squeezed encoder array [4, 256, 512], the squeezed decoder array
    [4, 64, 512], the weights and the biases: at (b, t, u, v) the output formula at encoder row (b, t) and decoder
    row (b, u). -/
def G (a0 : Vec Ideal S4x256x512 .f32) (a1 : Vec Ideal S4x64x512 .f32) (x2 : Vec Ideal S512x512 .f32)
    (x3 : Vec Ideal S512 .f32) (x4 x5 : Vec Ideal S512x512 .f32) (x6 : Vec Ideal S512 .f32) :
    Vec Ideal S4x256x64x512 .f32 := fun i =>
  Joint.out x2 x4 x5 x3 x6
    (fun k => a0 (ix3 (⟨(i 0).val, (i 0).isLt⟩ : Fin 4) (⟨(i 1).val, (i 1).isLt⟩ : Fin 256) k))
    (fun k => a1 (ix3 (⟨(i 0).val, (i 0).isLt⟩ : Fin 4) (⟨(i 2).val, (i 2).isLt⟩ : Fin 64) k))
    (⟨(i 3).val, (i 3).isLt⟩ : Fin 512)

/-- The windows' block indices over the grid: the encoder window moves with the output window on the batch and time
    axes, the decoder window on the batch axis only, the weights and biases stay at block zero, and the output's block
    indices on the label and vocabulary axes are zero. -/
theorem idx_facts : ∀ t : Fin cfg0.N,
    win0_0.index t (0 : Fin 3) = win0_7.index t (0 : Fin 4) ∧ win0_0.index t (1 : Fin 3) = win0_7.index t (1 : Fin 4)
    ∧ win0_0.index t (2 : Fin 3) = 0
    ∧ win0_1.index t (0 : Fin 3) = win0_7.index t (0 : Fin 4) ∧ win0_1.index t (1 : Fin 3) = 0
    ∧ win0_1.index t (2 : Fin 3) = 0
    ∧ win0_7.index t (2 : Fin 4) = 0 ∧ win0_7.index t (3 : Fin 4) = 0
    ∧ win0_2.index t (0 : Fin 2) = 0 ∧ win0_2.index t (1 : Fin 2) = 0 ∧ win0_3.index t (0 : Fin 1) = 0
    ∧ win0_4.index t (0 : Fin 2) = 0 ∧ win0_4.index t (1 : Fin 2) = 0
    ∧ win0_5.index t (0 : Fin 2) = 0 ∧ win0_5.index t (1 : Fin 2) = 0 ∧ win0_6.index t (0 : Fin 1) = 0
    ∧ win0_7.index t (0 : Fin 4) ≤ 3 ∧ win0_7.index t (1 : Fin 4) ≤ 7 :=
  (by decide +kernel : ∀ t : Fin grid0.N, _)

/-- Every block of the result is some point's. -/
theorem idx_onto : ∀ (q0 : Fin 4) (q1 : Fin 8), ∃ t : Fin cfg0.N, win0_7.index t = ![q0.val, q1.val, 0, 0] :=
  (by decide +kernel : ∀ (q0 : Fin 4) (q1 : Fin 8), ∃ t : Fin grid0.N, win0_7.index t = ![q0.val, q1.val, 0, 0])

/-- A weight or bias window's block is its whole array. -/
theorem iblk2 (c : Dev nD) (t : Fin cfg0.N) : (iblk m c 2 t : S512x512.Idx → EReal) = V m c main_arg2 := by
  obtain ⟨-, -, -, -, -, -, -, -, e0, e1, -⟩ := idx_facts t
  funext y
  show V m c main_arg2 (((cfg0.win 2).blk t).view.emb y) = V m c main_arg2 y
  refine congrArg _ (funext fun a => Fin.ext ?_)
  match a with
  | ⟨0, _⟩ => show win0_2.index t (0 : Fin 2) * 512 + 1 * (y 0).val = (y 0).val; omega
  | ⟨1, _⟩ => show win0_2.index t (1 : Fin 2) * 512 + 1 * (y 1).val = (y 1).val; omega

theorem iblk4 (c : Dev nD) (t : Fin cfg0.N) : (iblk m c 4 t : S512x512.Idx → EReal) = V m c main_arg4 := by
  obtain ⟨-, -, -, -, -, -, -, -, -, -, -, e0, e1, -⟩ := idx_facts t
  funext y
  show V m c main_arg4 (((cfg0.win 4).blk t).view.emb y) = V m c main_arg4 y
  refine congrArg _ (funext fun a => Fin.ext ?_)
  match a with
  | ⟨0, _⟩ => show win0_4.index t (0 : Fin 2) * 512 + 1 * (y 0).val = (y 0).val; omega
  | ⟨1, _⟩ => show win0_4.index t (1 : Fin 2) * 512 + 1 * (y 1).val = (y 1).val; omega

theorem iblk5 (c : Dev nD) (t : Fin cfg0.N) : (iblk m c 5 t : S512x512.Idx → EReal) = V m c main_arg5 := by
  obtain ⟨-, -, -, -, -, -, -, -, -, -, -, -, -, e0, e1, -⟩ := idx_facts t
  funext y
  show V m c main_arg5 (((cfg0.win 5).blk t).view.emb y) = V m c main_arg5 y
  refine congrArg _ (funext fun a => Fin.ext ?_)
  match a with
  | ⟨0, _⟩ => show win0_5.index t (0 : Fin 2) * 512 + 1 * (y 0).val = (y 0).val; omega
  | ⟨1, _⟩ => show win0_5.index t (1 : Fin 2) * 512 + 1 * (y 1).val = (y 1).val; omega

theorem iblk3 (c : Dev nD) (t : Fin cfg0.N) : (iblk m c 3 t : S512.Idx → EReal) = V m c main_arg3 := by
  obtain ⟨-, -, -, -, -, -, -, -, -, -, e0, -⟩ := idx_facts t
  funext y
  show V m c main_arg3 (((cfg0.win 3).blk t).view.emb y) = V m c main_arg3 y
  refine congrArg _ (funext fun a => Fin.ext ?_)
  match a with
  | ⟨0, _⟩ => show win0_3.index t (0 : Fin 1) * 512 + 1 * (y 0).val = (y 0).val; omega

theorem iblk6 (c : Dev nD) (t : Fin cfg0.N) : (iblk m c 6 t : S512.Idx → EReal) = V m c main_arg6 := by
  obtain ⟨-, -, -, -, -, -, -, -, -, -, -, -, -, -, -, e0, -⟩ := idx_facts t
  funext y
  show V m c main_arg6 (((cfg0.win 6).blk t).view.emb y) = V m c main_arg6 y
  refine congrArg _ (funext fun a => Fin.ext ?_)
  match a with
  | ⟨0, _⟩ => show win0_6.index t (0 : Fin 1) * 512 + 1 * (y 0).val = (y 0).val; omega

/-- WHAT POINT `t` WRITES BACK is block `t` of `G` of the arrays the region finds. -/
theorem flushed_eq (c : Dev nD) (t : Fin cfg0.N) :
    (dats m 0 c).flushed 7 t = ((cfg0.win 7).blk t).view.read (Elt Ideal)
      (G (V m c main_v0) (V m c main_v1) (V m c main_arg2) (V m c main_arg3) (V m c main_arg4) (V m c main_arg5)
        (V m c main_arg6)) := by
  rw [Value.flushed7]
  have hb : outsAt0 m c t = blockVal (iblk m c 0 t) (iblk m c 1 t) (iblk m c 2 t) (iblk m c 3 t) (iblk m c 4 t) (iblk m c 5 t) (iblk m c 6 t) :=
    out0_A_7_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) (iblk m c 5 t) (iblk m c 6 t)
  rw [hb]
  obtain ⟨e0, e1, e2, e3, e4, e5, e6, e7, -⟩ := idx_facts t
  funext j
  show blockVal (iblk m c 0 t) (iblk m c 1 t) (iblk m c 2 t) (iblk m c 3 t) (iblk m c 4 t) (iblk m c 5 t) (iblk m c 6 t) j = G (V m c main_v0) (V m c main_v1) (V m c main_arg2) (V m c main_arg3) (V m c main_arg4)
    (V m c main_arg5) (V m c main_arg6) (((cfg0.win 7).blk t).view.emb j)
  rw [iblk2 m c t, iblk3 m c t, iblk4 m c t, iblk5 m c t, iblk6 m c t]
  unfold blockVal G
  refine Joint.out_congr _ _ _ _ _ (fun k => ?_) (fun k => ?_) ?_
  · show V m c main_v0 (((cfg0.win 0).blk t).view.emb (ix3 (0 : Fin 1) (⟨(j 1).val, (j 1).isLt⟩ : Fin 32) k)) = _
    refine congrArg _ (funext fun a => Fin.ext ?_)
    match a with
    | ⟨0, _⟩ =>
      show win0_0.index t (0 : Fin 3) * 1 + 1 * 0 = win0_7.index t (0 : Fin 4) * 1 + 1 * (j 0).val
      have hj : (j 0).val < 1 := (j 0).isLt
      omega
    | ⟨1, _⟩ =>
      show win0_0.index t (1 : Fin 3) * 32 + 1 * (j 1).val = win0_7.index t (1 : Fin 4) * 32 + 1 * (j 1).val
      omega
    | ⟨2, _⟩ => show win0_0.index t (2 : Fin 3) * 512 + 1 * k.val = k.val; omega
  · show V m c main_v1 (((cfg0.win 1).blk t).view.emb (ix3 (0 : Fin 1) (⟨(j 2).val, (j 2).isLt⟩ : Fin 64) k)) = _
    refine congrArg _ (funext fun a => Fin.ext ?_)
    match a with
    | ⟨0, _⟩ =>
      show win0_1.index t (0 : Fin 3) * 1 + 1 * 0 = win0_7.index t (0 : Fin 4) * 1 + 1 * (j 0).val
      have hj : (j 0).val < 1 := (j 0).isLt
      omega
    | ⟨1, _⟩ =>
      show win0_1.index t (1 : Fin 3) * 64 + 1 * (j 2).val = win0_7.index t (2 : Fin 4) * 64 + 1 * (j 2).val
      omega
    | ⟨2, _⟩ => show win0_1.index t (2 : Fin 3) * 512 + 1 * k.val = k.val; omega
  · exact Fin.ext (show (j 3).val = win0_7.index t (3 : Fin 4) * 512 + 1 * (j 3).val by omega)

/-- An index of the result array is in point `t`'s block iff each coordinate is in the block's range on its axis. -/
theorem mem_blk (t : Fin cfg0.N) (i : S4x256x64x512.Idx) :
    i ∈ ((cfg0.win 7).blk t).view.set ↔ ∀ a : Fin 4, win0_7.index t a * S1x32x64x512.size a ≤ (i a).val
      ∧ (i a).val < win0_7.index t a * S1x32x64x512.size a + S1x32x64x512.size a := by
  show i ∈ ((View.whole main_v2).slice (win0_7.rect t)).set ↔ _
  rw [View.set_slice_whole, Rect.mem_set_unit]
  exact Iff.rfl

/-- The blocks cover the array: entry (b, t, u, v) is in the block of the point with block index (b, t / 32, 0, 0). -/
theorem cover (i : S4x256x64x512.Idx) :
    ∃ t : Fin cfg0.N, (cfg0.win 7).flush t = true ∧ i ∈ ((cfg0.win 7).blk t).view.set := by
  have hi0 : (i 0).val < 4 := (i 0).isLt
  have hi1 : (i 1).val < 256 := (i 1).isLt
  have hi2 : (i 2).val < 64 := (i 2).isLt
  have hi3 : (i 3).val < 512 := (i 3).isLt
  obtain ⟨t, ht⟩ := idx_onto ⟨(i 0).val, hi0⟩ ⟨(i 1).val / 32, by omega⟩
  have q0 : win0_7.index t (0 : Fin 4) = (i 0).val := congrFun ht 0
  have q1 : win0_7.index t (1 : Fin 4) = (i 1).val / 32 := congrFun ht 1
  have q2 : win0_7.index t (2 : Fin 4) = 0 := congrFun ht 2
  have q3 : win0_7.index t (3 : Fin 4) = 0 := congrFun ht 3
  refine ⟨t, flush0_7 t, ?_⟩
  rw [mem_blk]
  intro a
  match a with
  | ⟨0, _⟩ =>
    show win0_7.index t (0 : Fin 4) * 1 ≤ (i 0).val ∧ (i 0).val < win0_7.index t (0 : Fin 4) * 1 + 1
    omega
  | ⟨1, _⟩ =>
    show win0_7.index t (1 : Fin 4) * 32 ≤ (i 1).val ∧ (i 1).val < win0_7.index t (1 : Fin 4) * 32 + 32
    omega
  | ⟨2, _⟩ =>
    show win0_7.index t (2 : Fin 4) * 64 ≤ (i 2).val ∧ (i 2).val < win0_7.index t (2 : Fin 4) * 64 + 64
    omega
  | ⟨3, _⟩ =>
    show win0_7.index t (3 : Fin 4) * 512 ≤ (i 3).val ∧ (i 3).val < win0_7.index t (3 : Fin 4) * 512 + 512
    omega

/-- THE ARRAY after the run: `G` of the arrays the region finds. -/
theorem final (c : Dev nD) : (dats m 0 c).arrAt 7 cfg0.N
    = G (V m c main_v0) (V m c main_v1) (V m c main_arg2) (V m c main_arg3) (V m c main_arg4) (V m c main_arg5)
        (V m c main_arg6) :=
  (dats m 0 c).arrAt_eq_of_cover 7 _ (fun t _ => flushed_eq m c t) (cover)

/-- The encoder array the region finds is the argument with its unit label axis squeezed away, -/
theorem V_v0 (c : Dev nD) : (V m c main_v0 : S4x256x512.Idx → EReal)
    = shapeCast S4x256x512 (m ((c : Thread nD τ).loc main_arg0)) shapeCasts_S4x256x1x512_S4x256x512 := by
  dsimp only [V, hostOps0]; after_results; rfl

/-- and the decoder array the argument with its unit time axis squeezed away. -/
theorem V_v1 (c : Dev nD) : (V m c main_v1 : S4x64x512.Idx → EReal)
    = shapeCast S4x64x512 (m ((c : Thread nD τ).loc main_arg1)) shapeCasts_S4x1x64x512_S4x64x512 := by
  dsimp only [V, hostOps0]; after_results; rfl

/-- `G` of the squeezed arguments is the result array `Joint.arr` of the arguments: a squeezed array at (b, t, k) is
    the argument at (b, t, 0, k), respectively (b, 0, u, k). -/
theorem G_squeezed (x0 : Vec Ideal S4x256x1x512 .f32) (x1 : Vec Ideal S4x1x64x512 .f32) (x2 : Vec Ideal S512x512 .f32)
    (x3 : Vec Ideal S512 .f32) (x4 x5 : Vec Ideal S512x512 .f32) (x6 : Vec Ideal S512 .f32) :
    G (shapeCast S4x256x512 x0 shapeCasts_S4x256x1x512_S4x256x512)
      (shapeCast S4x64x512 x1 shapeCasts_S4x1x64x512_S4x64x512) x2 x3 x4 x5 x6
      = Joint.arr x0 x1 x2 x3 x4 x5 x6 := by
  funext i
  unfold G Joint.arr
  exact Joint.out_congr _ _ _ _ _ (fun k => LibSqueeze.shapeCast_ab1c_abc_apply x0 _ _ _ k)
    (fun k => LibSqueeze.shapeCast_a1bc_abc_apply x1 _ _ _ k) rfl

/-- THE RESULT ARRAY after the run is `Joint.arr` of the seven argument arrays. -/
theorem result (c : Dev nD) : (dats m 0 c).arrAt 7 cfg0.N
    = Joint.arr (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5))
        (m ((c : Thread nD τ).loc main_arg6)) := by
  rw [final, V_v0, V_v1, V_main_arg2, V_main_arg3, V_main_arg4, V_main_arg5, V_main_arg6]
  exact G_squeezed _ _ _ _ _ _ _

/-- The kernel's run with the result array read: every weakly fair execution ends with the result at `Joint.arr` of the
    arguments and the arguments unchanged. -/
theorem run : θ_run defs (onTc (τ := τ) (main (F := Ideal))) ⟨m, fun _ => 0, ρ⟩ fun r => ∀ c : Dev nD,
      r.2.mem ((c : Thread nD τ).loc main_v2)
        = Joint.arr (m ((c : Thread nD τ).loc main_arg0)) (m ((c : Thread nD τ).loc main_arg1))
            (m ((c : Thread nD τ).loc main_arg2)) (m ((c : Thread nD τ).loc main_arg3))
            (m ((c : Thread nD τ).loc main_arg4)) (m ((c : Thread nD τ).loc main_arg5))
            (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (result m c), (h c).2⟩) (Value.run_blocks m ρ)

end Cert.KernelIdeal.Whole

end
-- ==== Proof.JointRef.lean ====
/-
  The reference computes the joint network's output array.

  Its thirteen host operations, read at an entry (b, t, u, v) one after the other: the last sum is over the hidden
  channel j of tanh (encoder projection + decoder projection) at (b, t, u, j) times W_out (j, v), plus the output
  bias at v; the two projections are broadcast from (b, t, 0, j) and (b, 0, u, j); each is a sum over the input
  channel, the encoder one with its bias added. That is `Joint.arr` entry by entry.
-/
import proofs.«142362_j24309514896038_2_alg».proof.Proof.Gen.ReferenceIdeal.Read
import proofs.«142362_j24309514896038_2_alg».proof.Proof.JointWhole

noncomputable section

namespace Cert.ReferenceIdeal.RefValue

open Cert.ReferenceIdeal Cert.ReferenceIdeal.Read Idealize.ShloMosaic Idealize.ShloMosaic.ValueIdx

/-- The reference's result term is `Joint.arr` of its arguments. -/
theorem result_eq (x0 : (⟨S4x256x1x512, .f32⟩ : BufTy).Contents (Elt Ideal)) (x1 : (⟨S4x1x64x512, .f32⟩ : BufTy).Contents (Elt Ideal))
    (x2 : (⟨S512x512, .f32⟩ : BufTy).Contents (Elt Ideal)) (x3 : (⟨S512, .f32⟩ : BufTy).Contents (Elt Ideal))
    (x4 x5 : (⟨S512x512, .f32⟩ : BufTy).Contents (Elt Ideal)) (x6 : (⟨S512, .f32⟩ : BufTy).Contents (Elt Ideal)) :
    val_main_v12 (F := Ideal) x0 x1 x2 x3 x4 x5 x6 = Joint.arr x0 x1 x2 x3 x4 x5 x6 := by
  funext i
  simp only [val_main_v12_apply, val_main_v9_apply, val_main_v8_apply, val_main_v7_apply, val_main_v5_apply,
    val_main_v6_apply, val_main_v3_apply, val_main_v0_apply, val_main_v2_apply, val_main_v1_apply, val_main_v4_apply,
    val_main_v11_apply, val_main_v10_apply]
  -- the composed index maps, coordinate by coordinate
  have e0 : ∀ j k : Fin 512, lidx_main_v0 (idx_main_v5 (lidx_main_v9 i j)) k
      = ix4 (⟨(i 0).val, (i 0).isLt⟩ : Fin 4) (⟨(i 1).val, (i 1).isLt⟩ : Fin 256) (0 : Fin 1) k :=
    fun j k => funext fun a => Fin.ext (by
      match a with
      | ⟨0, _⟩ => rfl
      | ⟨1, _⟩ => rfl
      | ⟨2, _⟩ => rfl
      | ⟨3, _⟩ => rfl)
  have e1 : ∀ j k : Fin 512, lidx_main_v4 (idx_main_v6 (lidx_main_v9 i j)) k
      = ix4 (⟨(i 0).val, (i 0).isLt⟩ : Fin 4) (0 : Fin 1) (⟨(i 2).val, (i 2).isLt⟩ : Fin 64) k :=
    fun j k => funext fun a => Fin.ext (by
      match a with
      | ⟨0, _⟩ => rfl
      | ⟨1, _⟩ => rfl
      | ⟨2, _⟩ => rfl
      | ⟨3, _⟩ => rfl)
  have e2 : ∀ j k : Fin 512, ridx_main_v0 (idx_main_v5 (lidx_main_v9 i j)) k = ix2 k j :=
    fun j k => funext fun a => Fin.ext (by
      match a with
      | ⟨0, _⟩ => rfl
      | ⟨1, _⟩ => rfl)
  have e3 : ∀ j : Fin 512, idx_main_v1 (idx_main_v2 (idx_main_v5 (lidx_main_v9 i j))) = ix1 j :=
    fun j => funext fun a => Fin.ext (by
      match a with
      | ⟨0, _⟩ => rfl)
  have e4 : ∀ j k : Fin 512, ridx_main_v4 (idx_main_v6 (lidx_main_v9 i j)) k = ix2 k j :=
    fun j k => funext fun a => Fin.ext (by
      match a with
      | ⟨0, _⟩ => rfl
      | ⟨1, _⟩ => rfl)
  have e5 : ∀ j : Fin 512, ridx_main_v9 i j = ix2 j (⟨(i 3).val, (i 3).isLt⟩ : Fin 512) :=
    fun j => funext fun a => Fin.ext (by
      match a with
      | ⟨0, _⟩ => rfl
      | ⟨1, _⟩ => rfl)
  have e6 : idx_main_v10 (idx_main_v11 i) = ix1 (⟨(i 3).val, (i 3).isLt⟩ : Fin 512) :=
    funext fun a => Fin.ext (by
      match a with
      | ⟨0, _⟩ => rfl)
  simp only [e0, e1, e2, e3, e4, e5, e6]
  rfl

end Cert.ReferenceIdeal.RefValue

end
-- ==== Proof.lean ====
/-
  The joint network of an RNN transducer: out (b, t, u, v) = Σ_j tanh ((Σ_k h_enc (b, t, 0, k) · W_enc (k, j) + b_enc j)
  + Σ_k h_dec (b, 0, u, k) · W_dec (k, j)) · W_out (j, v) + b_out v, over f32[4, 256, 64, 512].

  The kernel squeezes the two inputs' unit axes on the host and runs one pipelined call over a 4 × 8 grid; each point
  projects 32 encoder rows (in four chunks of 8) and the batch's 64 decoder rows, adds them with broadcasting, applies
  tanh and multiplies by W_out, rounding matmul operands to bf16 on the way. The reference is the same formula as three
  einsums. Read over the extended reals the roundings are the identity, a matrix product into a zero accumulator is the
  plain sum, and both programs take the same sums in the same order with the same grouping of the additions: the two
  result arrays are one function of the arguments (`Joint.arr`), entry by entry, and no finiteness of the inputs is
  used.

  The modules: JointSpec and JointWhole state the formula; JointChunk reads one chunk of the kernel's body at an entry;
  JointBlock reads what the body's four stores leave in the output block; JointArray goes from the blocks to the whole
  array and through the host's squeezes; JointRef reads the reference's thirteen operations at an entry. The frames
  are the generated ones (the reference's is its generated run with the result dropped), and the idealization rewrote
  nothing, so there is nothing to preserve.
-/
import proofs.«142362_j24309514896038_2_alg».proof.Defs
import proofs.«142362_j24309514896038_2_alg».proof.Proof.Gen.Kernel
import proofs.«142362_j24309514896038_2_alg».proof.Proof.Gen.Kernel.Skeleton
import proofs.«142362_j24309514896038_2_alg».proof.Proof.Gen.Kernel.Launch
import proofs.«142362_j24309514896038_2_alg».proof.Proof.Gen.Kernel.Points
import proofs.«142362_j24309514896038_2_alg».proof.Proof.Gen.Kernel.Frame
import proofs.«142362_j24309514896038_2_alg».proof.Proof.Gen.KernelIdeal
import proofs.«142362_j24309514896038_2_alg».proof.Proof.Gen.KernelIdeal.Skeleton
import proofs.«142362_j24309514896038_2_alg».proof.Proof.Gen.KernelIdeal.Launch
import proofs.«142362_j24309514896038_2_alg».proof.Proof.Gen.KernelIdeal.Points
import proofs.«142362_j24309514896038_2_alg».proof.Proof.Gen.KernelIdeal.Frame
import proofs.«142362_j24309514896038_2_alg».proof.Proof.Gen.ReferenceIdeal
import proofs.«142362_j24309514896038_2_alg».proof.Proof.Gen.Pre_finite_inputs
import proofs.«142362_j24309514896038_2_alg».proof.Proof.Gen.KernelIdeal.Value
import proofs.«142362_j24309514896038_2_alg».proof.Proof.Gen.ReferenceIdeal.Run
import proofs.«142362_j24309514896038_2_alg».proof.Proof.Gen.ReferenceIdeal.Read
import proofs.«142362_j24309514896038_2_alg».proof.Proof.JointArray
import proofs.«142362_j24309514896038_2_alg».proof.Proof.JointRef
import Idealize.ShloMosaic.Adequacy
import Idealize.ShloMosaic.Init

noncomputable section

namespace Cert.Proof

open Idealize.ShloMosaic Idealize.ShloMosaic.TcCoe Idealize.SL.Sem

/-- The kernel as printed runs and leaves its arguments alone. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a line of host operations: its run, with what it says of the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments, both programs end with the result at `Joint.arr` of the arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.RefValue.result_eq, (hagree c).1, (hagree c).2.1,
    (hagree c).2.2.1, (hagree c).2.2.2.1, (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
